-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S50000 : Shape := ⟨1, ![50000]⟩
abbrev S96x256 : Shape := ⟨2, ![96, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x256 : S_.BroadcastsInDim S96x256 (![] : Fin 0 → Fin S96x256.rank)
  reducesTo_S96x256_S_d0_1 : S96x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg9 : FVec F S256x256 .f32) (main_arg10 : FVec F S256 .f32) (main_arg11 : FVec F S256x2 .f32) (main_arg12 : FVec F S2 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x2 .f32 := Host.absf main_arg11
  let main_cst_16 : FVec F S_ .f32 := constant S_ .f32 0x7F800000#32
  let main_v45 : FVec F S256x2 .f32 := broadcastInDim S256x2 ![] bcast_S_S256x2 main_cst_16
  let main_v46 : IVec S256x2 1 := cmpf .olt main_v44 main_v45
  let main_c_17 : IVec S_ 1 := constantI S_ 1 1#1
  let main_v47 : IVec S_ 1 := (fun x v => Host.reduce IntOp.andi x v reducesTo_S256x2_S_d0_1 h_S_) main_v46 main_c_17
  let main_v48 : IVec S_ 1 := andi main_v43 main_v47
  let main_v49 : FVec F S2 .f32 := Host.absf main_arg12
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg6 : FVec F S256 .f32) (main_arg7 : FVec F S256x256 .f32) (main_arg8 : FVec F S256 .f32) (main_arg9 : FVec F S256x256 .f32) (main_arg10 : FVec F S256 .f32) (main_arg11 : FVec F S256x2 .f32) (main_arg12 : FVec F S2 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x96 .f32) (main_arg1 : IVec S2x800000 32) (main_arg2 : IVec S50000 32) (main_arg3 : FVec F S96x256 .f32) (main_arg4 : FVec F S256 .f32) (main_arg5 : FVec F S256x256 .f32) (main_arg6 : FVec F S256 .f32) (main_arg7 : FVec F S256x256 .f32) (main_arg8 : FVec F S256 .f32) (main_arg9 : FVec F S256x256 .f32) (main_arg10 : FVec F S256 .f32) (main_arg11 : FVec F S256x2 .f32) (main_arg12 : FVec F S2 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x256 .f32 := Host.absf main_arg3
  let main_cst_0 : FVec F S_ .f32 := constant S_ .f32 0x7F800000#32
  let main_v5 : FVec F S96x256 .f32 := broadcastInDim S96x256 ![] bcast_S_S96x256 main_cst_0
  let main_v6 : IVec S96x256 1 := cmpf .olt main_v4 main_v5
  let main_c_1 : IVec S_ 1 := constantI S_ 1 1#1
  let main_v7 : IVec S_ 1 := (fun x v => Host.reduce IntOp.andi x v reducesTo_S96x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_v13 main_v16
-- ==== Kernel.lean ====
abbrev S50000x96 : Shape := ⟨2, ![50000, 96]⟩
abbrev S2x800000 : Shape := ⟨2, ![2, 800000]⟩
abbrev S50000 : Shape := ⟨1, ![50000]⟩
abbrev S96x256 : Shape := ⟨2, ![96, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000x256 : Shape := ⟨2, ![50000, 256]⟩
abbrev S2000x96 : Shape := ⟨2, ![2000, 96]⟩
abbrev S2000x256 : Shape := ⟨2, ![2000, 256]⟩
abbrev S1x256 : Shape := ⟨2, ![1, 256]⟩
abbrev S800000x256 : Shape := ⟨2, ![800000, 256]⟩
abbrev S64x256 : Shape := ⟨2, ![64, 256]⟩
abbrev S50000x1 : Shape := ⟨2, ![50000, 1]⟩
abbrev S64x1 : Shape := ⟨2, ![64, 1]⟩
abbrev S64x2 : Shape := ⟨2, ![64, 2]⟩
abbrev S1x2 : Shape := ⟨2, ![1, 2]⟩

abbrev nBuf : Space → Nat
  | .hbm => 64
  | .vmem => 20
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S50000, .i32⟩
  | .hbm, ⟨3, _⟩ => ⟨S96x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x2, .f32⟩
  | .hbm, ⟨12, _⟩ => ⟨S2, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x96, .f32⟩
  | .hbm, ⟨26, _⟩ => ⟨S_, .f32⟩
  | .hbm, ⟨27, _⟩ => ⟨S50000x96, .f32⟩
  | .hbm, ⟨28, _⟩ => ⟨S800000x1, .i32⟩
  | .hbm, ⟨29, _⟩ => ⟨S50000x96, .f32⟩
  | .hbm, ⟨30, _⟩ => ⟨S50000x256, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000x256, .f32⟩
  | .hbm, ⟨40, _⟩ => ⟨S_, .f32⟩
  | .hbm, ⟨41, _⟩ => ⟨S50000x256, .f32⟩
  | .hbm, ⟨42, _⟩ => ⟨S800000x1, .i32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S64x256, .f32⟩
  | .hbm, ⟨47, _⟩ => ⟨S50000x1, .i32⟩
  | .hbm, ⟨48, _⟩ => ⟨S64x256, .f32⟩
  | .hbm, ⟨49, _⟩ => ⟨S_, .f32⟩
  | .hbm, ⟨50, _⟩ => ⟨S50000x1, .f32⟩
  | .hbm, ⟨51, _⟩ => ⟨S_, .f32⟩
  | .hbm, ⟨52, _⟩ => ⟨S64x1, .f32⟩
  | .hbm, ⟨53, _⟩ => ⟨S50000x1, .i32⟩
  | .hbm, ⟨54, _⟩ => ⟨S64x1, .f32⟩
  | .hbm, ⟨55, _⟩ => ⟨S_, .f32⟩
  | .hbm, ⟨56, _⟩ => ⟨S64x1, .f32⟩
  | .hbm, ⟨57, _⟩ => ⟨S64x1, .f32⟩
  | .hbm, ⟨58, _⟩ => ⟨S64x256, .f32⟩
  | .hbm, ⟨59, _⟩ => ⟨S64x256, .f32⟩
  | .hbm, ⟨60, _⟩ => ⟨S64x2, .f32⟩
  | .hbm, ⟨61, _⟩ => ⟨S1x2, .f32⟩
  | .hbm, ⟨62, _⟩ => ⟨S64x2, .f32⟩
  | .hbm, ⟨63, _⟩ => ⟨S64x2, .f32⟩
  | .local _ .vmem, ⟨0, _⟩ => ⟨S2000x96, .f32⟩
  | .local _ .vmem, ⟨1, _⟩ => ⟨S2000x96, .f32⟩
  | .local _ .vmem, ⟨2, _⟩ => ⟨S2000x96, .f32⟩
  | .local _ .vmem, ⟨3, _⟩ => ⟨S2000x96, .f32⟩
  | .local _ .vmem, ⟨4, _⟩ => ⟨S96x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x256, .f32⟩
  | .local _ .vmem, ⟨15, _⟩ => ⟨S256, .f32⟩
  | .local _ .vmem, ⟨16, _⟩ => ⟨S256x256, .f32⟩
  | .local _ .vmem, ⟨17, _⟩ => ⟨S256, .f32⟩
  | .local _ .vmem, ⟨18, _⟩ => ⟨S2000x256, .f32⟩
  | .local _ .vmem, ⟨19, _⟩ => ⟨S2000x256, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_1 : Ref sig .tc := ⟨.hbm, 31, rfl⟩
abbrev main_v15 : Ref sig .tc := ⟨.hbm, 32, rfl⟩
abbrev main_v16 : Ref sig .tc := ⟨.hbm, 33, rfl⟩
abbrev main_c_2 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_5 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  inb_S2000x96_S2000x96_0_0 : ∀ a, (![0, 0] : Fin 2 → Nat) a + S2000x96.size a ≤ S2000x96.size a
  h_S2000x96 : 0 < S2000x96.numel
  shapeCasts_S2000x96_S2000x96 : S2000x96.ShapeCasts S2000x96
  bitsLt_bf16_f32 : FTy.bits .bf16 < FTy.bits .f32
  inb_S96x256_S96x256_0_0 : ∀ a, (![0, 0] : Fin 2 → Nat) a + S96x256.size a ≤ S96x256.size a
  h_S96x256 : 0 < S96x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S2000x256_S2000x256 : S2000x256.ShapeCasts S2000x256
  bcast_S_S64x256 : S_.BroadcastsInDim S64x256 (![] : Fin 0 → Fin S64x256.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S64x1 : S_.BroadcastsInDim S64x1 (![] : Fin 0 → Fin S64x1.rank)
  bcast_S64x1_S64x256_0_1 : S64x1.BroadcastsInDim S64x256 (![0, 1] : Fin 2 → Fin S64x256.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S2000x96_S96x256_S2000x256_1_0_0_1_n_n_wf : DotDims.WF S2000x96 S96x256 S2000x256 [1] [0] [0] [1] [] []
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S64x256_S50000x1_S50000x256_1_0_0_1_wf : ScatterDims.WF S64x256 S50000x1 S50000x256 [1] [0] [0] 1
  scatter_S64x1_S50000x1_S50000x1_1_0_0_1_wf : ScatterDims.WF S64x1 S50000x1 S50000x1 [1] [0] [0] 1
  dot_S64x256_S256x2_S64x2_1_0_0_1_n_n_wf : DotDims.WF S64x256 S256x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .f32 = 32 ∨ (Rect.block (s := S50000x96) S2000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x96.size a ≤ S50000x96.size a
  hwx0_1 : ∀ i : grid0.Coords, EltTy.bits .f32 = 32 ∨ (Rect.block (s := S50000x96) S2000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x256.size a ≤ S96x256.size a
  hwx0_2 : ∀ i : grid0.Coords, EltTy.bits .f32 = 32 ∨ (Rect.block (s := S96x256) S96x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S2000x96_S96x256_S2000x256_1_0_0_1_n_n : DotDims S2000x96 S96x256 S2000x256 where
  lhsContracting := [1]
  rhsContracting := [0]
  lhsNonContracting := [0]
  rhsNonContracting := [1]
  lhsBatch := []
  rhsBatch := []
  wf := dot_S2000x96_S96x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf
def dot_S64x256_S256x2_S64x2_1_0_0_1_n_n : DotDims S64x256 S256x2 S64x2 where
  lhsContracting := [1]
  rhsContracting := [0]
  lhsNonContracting := [0]
  rhsNonContracting := [1]
  lhsBatch := []
  rhsBatch := []
  wf := dot_S64x256_S256x2_S64x2_1_0_0_1_n_n_wf

abbrev win0_0 : Pipeline.Window sig grid0 :=
  Pipeline.Window.ofSpec (Memref.whole main_arg0) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S96x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S50000 : Shape := ⟨1, ![50000]⟩
abbrev S96x256 : Shape := ⟨2, ![96, 256]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000x256 : Shape := ⟨2, ![50000, 256]⟩
abbrev S1x256 : Shape := ⟨2, ![1, 256]⟩
abbrev S800000x256 : Shape := ⟨2, ![800000, 256]⟩
abbrev S64x256 : Shape := ⟨2, ![64, 256]⟩
abbrev S50000x1 : Shape := ⟨2, ![50000, 1]⟩
abbrev S64x1 : Shape := ⟨2, ![64, 1]⟩
abbrev S64x2 : Shape := ⟨2, ![64, 2]⟩
abbrev S1x2 : Shape := ⟨2, ![1, 2]⟩

abbrev nBuf : Space → Nat
  | .hbm => 89
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S50000, .i32⟩
  | .hbm, ⟨3, _⟩ => ⟨S96x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S256x2, .f32⟩
  | .hbm, ⟨12, _⟩ => ⟨S2, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x96, .f32⟩
  | .hbm, ⟨26, _⟩ => ⟨S_, .f32⟩
  | .hbm, ⟨27, _⟩ => ⟨S50000x96, .f32⟩
  | .hbm, ⟨28, _⟩ => ⟨S800000x1, .i32⟩
  | .hbm, ⟨29, _⟩ => ⟨S50000x96, .f32⟩
  | .hbm, ⟨30, _⟩ => ⟨S50000x96, .f32⟩
  | .hbm, ⟨31, _⟩ => ⟨S50000x256, .f32⟩
  | .hbm, ⟨32, _⟩ => ⟨S1x256, .f32⟩
  | .hbm, ⟨33, _⟩ => ⟨S50000x256, .f32⟩
  | .hbm, ⟨34, _⟩ => ⟨S50000x256, .f32⟩
  | .hbm, ⟨35, _⟩ => ⟨S_, .f32⟩
  | .hbm, ⟨36, _⟩ => ⟨S50000x256, .f32⟩
  | .hbm, ⟨37, _⟩ => ⟨S50000x256, .f32⟩
  | .hbm, ⟨38, _⟩ => ⟨S50000x256, .f32⟩
  | .hbm, ⟨39, _⟩ => ⟨S1x256, .f32⟩
  | .hbm, ⟨40, _⟩ => ⟨S50000x256, .f32⟩
  | .hbm, ⟨41, _⟩ => ⟨S50000x256, .f32⟩
  | .hbm, ⟨42, _⟩ => ⟨S_, .f32⟩
  | .hbm, ⟨43, _⟩ => ⟨S50000x256, .f32⟩
  | .hbm, ⟨44, _⟩ => ⟨S50000x256, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x256, .f32⟩
  | .hbm, ⟨54, _⟩ => ⟨S_, .f32⟩
  | .hbm, ⟨55, _⟩ => ⟨S50000x256, .f32⟩
  | .hbm, ⟨56, _⟩ => ⟨S800000x1, .i32⟩
  | .hbm, ⟨57, _⟩ => ⟨S50000x256, .f32⟩
  | .hbm, ⟨58, _⟩ => ⟨S50000x256, .f32⟩
  | .hbm, ⟨59, _⟩ => ⟨S50000x256, .f32⟩
  | .hbm, ⟨60, _⟩ => ⟨S1x256, .f32⟩
  | .hbm, ⟨61, _⟩ => ⟨S50000x256, .f32⟩
  | .hbm, ⟨62, _⟩ => ⟨S50000x256, .f32⟩
  | .hbm, ⟨63, _⟩ => ⟨S_, .f32⟩
  | .hbm, ⟨64, _⟩ => ⟨S50000x256, .f32⟩
  | .hbm, ⟨65, _⟩ => ⟨S50000x256, .f32⟩
  | .hbm, ⟨66, _⟩ => ⟨S50000x256, .f32⟩
  | .hbm, ⟨67, _⟩ => ⟨S1x256, .f32⟩
  | .hbm, ⟨68, _⟩ => ⟨S50000x256, .f32⟩
  | .hbm, ⟨69, _⟩ => ⟨S50000x256, .f32⟩
  | .hbm, ⟨70, _⟩ => ⟨S_, .f32⟩
  | .hbm, ⟨71, _⟩ => ⟨S64x256, .f32⟩
  | .hbm, ⟨72, _⟩ => ⟨S50000x1, .i32⟩
  | .hbm, ⟨73, _⟩ => ⟨S64x256, .f32⟩
  | .hbm, ⟨74, _⟩ => ⟨S_, .f32⟩
  | .hbm, ⟨75, _⟩ => ⟨S50000x1, .f32⟩
  | .hbm, ⟨76, _⟩ => ⟨S_, .f32⟩
  | .hbm, ⟨77, _⟩ => ⟨S64x1, .f32⟩
  | .hbm, ⟨78, _⟩ => ⟨S50000x1, .i32⟩
  | .hbm, ⟨79, _⟩ => ⟨S64x1, .f32⟩
  | .hbm, ⟨80, _⟩ => ⟨S_, .f32⟩
  | .hbm, ⟨81, _⟩ => ⟨S64x1, .f32⟩
  | .hbm, ⟨82, _⟩ => ⟨S64x1, .f32⟩
  | .hbm, ⟨83, _⟩ => ⟨S64x256, .f32⟩
  | .hbm, ⟨84, _⟩ => ⟨S64x256, .f32⟩
  | .hbm, ⟨85, _⟩ => ⟨S64x2, .f32⟩
  | .hbm, ⟨86, _⟩ => ⟨S1x2, .f32⟩
  | .hbm, ⟨87, _⟩ => ⟨S64x2, .f32⟩
  | .hbm, ⟨88, _⟩ => ⟨S64x2, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call1_cst : Ref sig .tc := ⟨.hbm, 42, rfl⟩
abbrev main_call1_v0 : Ref sig .tc := ⟨.hbm, 43, rfl⟩
abbrev main_v24 : Ref sig .tc := ⟨.hbm, 44, rfl⟩
abbrev main_c_1 : Ref sig .tc := ⟨.hbm, 45, rfl⟩
abbrev main_v25 : Ref sig .tc := ⟨.hbm, 46, rfl⟩
abbrev main_v26 : Ref sig .tc := ⟨.hbm, 47, rfl⟩
abbrev main_c_2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_3 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_call2_cst : Ref sig .tc := ⟨.hbm, 63, rfl⟩
abbrev main_call2_v0 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_4 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_5 : Ref sig .tc := ⟨.hbm, 74, rfl⟩
abbrev main_v48 : Ref sig .tc := ⟨.hbm, 75, rfl⟩
abbrev main_cst_6 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_7 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S_S64x256 : S_.BroadcastsInDim S64x256 (![] : Fin 0 → Fin S64x256.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S64x1 : S_.BroadcastsInDim S64x1 (![] : Fin 0 → Fin S64x1.rank)
  bcast_S64x1_S64x256_0_1 : S64x1.BroadcastsInDim S64x256 (![0, 1] : Fin 2 → Fin S64x256.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x256_S50000x256_1_0_0_1_n_n_wf : DotDims.WF S50000x96 S96x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S64x256_S50000x1_S50000x256_1_0_0_1_wf : ScatterDims.WF S64x256 S50000x1 S50000x256 [1] [0] [0] 1
  scatter_S64x1_S50000x1_S50000x1_1_0_0_1_wf : ScatterDims.WF S64x1 S50000x1 S50000x1 [1] [0] [0] 1
  dot_S64x256_S256x2_S64x2_1_0_0_1_n_n_wf : DotDims.WF S64x256 S256x2 S64x2 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x256_S50000x256_1_0_0_1_n_n : DotDims S50000x96 S96x256 S50000x256 where
  lhsContracting := [1]
  rhsContracting := [0]
  lhsNonContracting := [0]
  rhsNonContracting := [1]
  lhsBatch := []
  rhsBatch := []
  wf := dot_S50000x96_S96x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S64x256_S50000x1_S50000x256_1_0_0_1 : ScatterDims S64x256 S50000x1 S50000x256 where
  updateWindowDims := [1]
  insertedWindowDims := [0]
  scatterDimsToOperandDims := [0]
  indexVectorDim := 1
  wf := scatter_S64x256_S50000x1_S50000x256_1_0_0_1_wf
def scatter_S64x1_S50000x1_S50000x1_1_0_0_1 : ScatterDims S64x1 S50000x1 S50000x1 where
  updateWindowDims := [1]
  insertedWindowDims := [0]
  scatterDimsToOperandDims := [0]
  indexVectorDim := 1
  wf := scatter_S64x1_S50000x1_S50000x1_1_0_0_1_wf
def dot_S64x256_S256x2_S64x2_1_0_0_1_n_n : DotDims S64x256 S256x2 S64x2 where
  lhsContracting := [1]
  rhsContracting := [0]
  lhsNonContracting := [0]
  rhsNonContracting := [1]
  lhsBatch := []
  rhsBatch := []
  wf := dot_S64x256_S256x2_S64x2_1_0_0_1_n_n_wf

class Facts : Prop extends Facts₀ where

variable [Facts]
-- ==== Proof.KernelRun.lean ====
/-
  The idealized kernel's run with its result named.

  @main is five segments: a stretch of host operations, the first convolution's perceptron as a pipelined region, a
  second stretch, the second perceptron's region, and the closing stretch (the mean over each graph and the last
  linear layer). The buffer contents at the segment boundaries are a fold from the launch memory: `W1` after the
  first stretch, `W2` when the first region has written its blocks back, `W3`, `W4`, and `W5` at the return.
  Every weakly fair execution terminates, without a fault, with EVERY unscoped buffer at its `W5` contents; read at
  the result buffer that is the result's value, read at an argument it is the argument as launched.
-/
import proofs.«109134_j67731634258537_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the five segments from the launch memory: it ends with the result buffer at the last boundary's
    contents and the thirteen argument arrays as launched. -/
theorem run_result : θ_run defs (onTc (τ := τ) (main (F := F))) ⟨m, fun _ => 0, ρ⟩ (fun r => ∀ c : Dev nD,
      r.2.mem ((c.tc : Thread nD τ).loc main_v40) = W5 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v40 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c)⟩)

end Cert.KernelIdeal.RunValue

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.GinSpec.lean ====
/-
  The two-layer perceptron of a graph-isomorphism convolution, entry by entry, and its two spellings.

  For node features `x` and neighbour sums `agg` (both m × k), weights `W1` (k × n), `W2` (n × l) and biases
  `b1`, `b2`, the hidden activation at (r, j) is
      hidden r j = max (∑ c, (x r c + agg r c) · W1 c j + b1 j) 0
  and the layer's value at (r, j) is  ∑ c, hidden r c · W2 c j + b2 j,  followed or not by a last `max · 0`.
  An entry depends on ROW r of `x` and `agg` only, so a block of consecutive rows of the result is the same function
  of the same rows of the operands (`hidden_rows`, `dense_rows`).

  One dense layer has two spellings: a kernel's — the product accumulated into the zero splat, operands passed
  through a change of float format (the identity on the extended reals), the bias cast to one row and laid along every
  row — and the host's — a contraction over one axis, the bias broadcast to one row and then down the rows. Both are
  `dense` (`kdense_apply`, `hdense_apply`): the sum over the contracted coordinate of the products, plus the bias.
  The zero of `max · 0` is kept as the float's word on both sides and never evaluated.
-/
import Idealize.ShloMosaic.Lib.ValueIdx
import Idealize.ShloMosaic.Lib.ValueLayout
import Idealize.ShloMosaic.Lib.KernelVsHost
import Idealize.ShloMosaic.Lib.StackMember
import Idealize.ShloMosaic.Lib.Pipeline.Value
import Idealize.ShloMosaic.PureOps.Ideal.Laws
import proofs.«109134_j67731634258537_1_alg».proof.Proof.LibMatmulPlain

noncomputable section

open scoped BigOperators

namespace Cert.Gin

open Idealize.ShloMosaic Idealize.ShloMosaic.ValueIdx

variable {m m' k n l : ℕ}

/-- The float zero, as its word. -/
abbrev zw : EReal := Ideal.ofBits .f32 0x00000000#32

/-- A table of entries as an array. -/
def tab (f : Fin m → Fin n → EReal) : FVec Ideal ⟨2, ![m, n]⟩ .f32 :=
  fun i => f ⟨(i 0).val, idx2_lt0 i⟩ ⟨(i 1).val, idx2_lt1 i⟩

theorem tab_ix2 (f : Fin m → Fin n → EReal) (r : Fin m) (j : Fin n) : tab f (ix2 r j) = f r j := rfl

/-- One dense layer at entry (r, j): row r of `A` against column j of `W`, plus the bias at j. -/
def dense (A : FVec Ideal ⟨2, ![m, k]⟩ .f32) (W : FVec Ideal ⟨2, ![k, n]⟩ .f32) (b : FVec Ideal ⟨1, ![n]⟩ .f32)
    (r : Fin m) (j : Fin n) : EReal :=
  (∑ c : Fin k, A (ix2 r c) * W (ix2 c j)) + b (ix1 j)

/-- The hidden activations: the first dense layer of `x + agg`, cut off below at zero. -/
def hidden (x agg : FVec Ideal ⟨2, ![m, k]⟩ .f32) (W : FVec Ideal ⟨2, ![k, n]⟩ .f32) (b : FVec Ideal ⟨1, ![n]⟩ .f32) :
    FVec Ideal ⟨2, ![m, n]⟩ .f32 :=
  tab fun r j => max (dense (fun i => x i + agg i) W b r j) zw

/-- The convolution's perceptron with a last cut-off at zero (the first convolution). -/
def conv1 (x agg : FVec Ideal ⟨2, ![m, k]⟩ .f32) (W1 : FVec Ideal ⟨2, ![k, n]⟩ .f32) (b1 : FVec Ideal ⟨1, ![n]⟩ .f32)
    (W2 : FVec Ideal ⟨2, ![n, l]⟩ .f32) (b2 : FVec Ideal ⟨1, ![l]⟩ .f32) : FVec Ideal ⟨2, ![m, l]⟩ .f32 :=
  tab fun r j => max (dense (hidden x agg W1 b1) W2 b2 r j) zw

/-- The convolution's perceptron without it (the second convolution). -/
def conv2 (x agg : FVec Ideal ⟨2, ![m, k]⟩ .f32) (W1 : FVec Ideal ⟨2, ![k, n]⟩ .f32) (b1 : FVec Ideal ⟨1, ![n]⟩ .f32)
    (W2 : FVec Ideal ⟨2, ![n, l]⟩ .f32) (b2 : FVec Ideal ⟨1, ![l]⟩ .f32) : FVec Ideal ⟨2, ![m, l]⟩ .f32 :=
  tab fun r j => dense (hidden x agg W1 b1) W2 b2 r j

/-! ## An entry depends on its row only -/

/-- A dense layer's entry in row r reads row r of its operand only. -/
theorem dense_rows (A : FVec Ideal ⟨2, ![m, k]⟩ .f32) (A' : FVec Ideal ⟨2, ![m', k]⟩ .f32) (W : FVec Ideal ⟨2, ![k, n]⟩ .f32)
    (b : FVec Ideal ⟨1, ![n]⟩ .f32) (r : Fin m) (r' : Fin m') (h : ∀ c, A (ix2 r c) = A' (ix2 r' c)) (j : Fin n) :
    dense A W b r j = dense A' W b r' j := by
  unfold dense
  rw [Finset.sum_congr rfl fun c _ => congrArg (· * W (ix2 c j)) (h c)]

/-- The hidden activations in row r read row r of the features and of the neighbour sums only. -/
theorem hidden_rows (x agg : FVec Ideal ⟨2, ![m, k]⟩ .f32) (x' agg' : FVec Ideal ⟨2, ![m', k]⟩ .f32)
    (W : FVec Ideal ⟨2, ![k, n]⟩ .f32) (b : FVec Ideal ⟨1, ![n]⟩ .f32) (r : Fin m) (r' : Fin m')
    (hx : ∀ c, x (ix2 r c) = x' (ix2 r' c)) (ha : ∀ c, agg (ix2 r c) = agg' (ix2 r' c)) (j : Fin n) :
    hidden x agg W b (ix2 r j) = hidden x' agg' W b (ix2 r' j) := by
  show max (dense _ W b r j) zw = max (dense _ W b r' j) zw
  rw [dense_rows _ _ W b r r' (fun c => ?_) j]
  show x (ix2 r c) + agg (ix2 r c) = x' (ix2 r' c) + agg' (ix2 r' c)
  rw [hx c, ha c]

/-- Rows r of one pair of operands and r' of another agree: so do the first convolution's entries there. -/
theorem conv1_rows (x agg : FVec Ideal ⟨2, ![m, k]⟩ .f32) (x' agg' : FVec Ideal ⟨2, ![m', k]⟩ .f32)
    (W1 : FVec Ideal ⟨2, ![k, n]⟩ .f32) (b1 : FVec Ideal ⟨1, ![n]⟩ .f32) (W2 : FVec Ideal ⟨2, ![n, l]⟩ .f32)
    (b2 : FVec Ideal ⟨1, ![l]⟩ .f32) (r : Fin m) (r' : Fin m')
    (hx : ∀ c, x (ix2 r c) = x' (ix2 r' c)) (ha : ∀ c, agg (ix2 r c) = agg' (ix2 r' c)) (j : Fin l) :
    conv1 x agg W1 b1 W2 b2 (ix2 r j) = conv1 x' agg' W1 b1 W2 b2 (ix2 r' j) := by
  show max (dense _ W2 b2 r j) zw = max (dense _ W2 b2 r' j) zw
  rw [dense_rows _ _ W2 b2 r r' (fun c => hidden_rows x agg x' agg' W1 b1 r r' hx ha c) j]

/-- The same for the second convolution. -/
theorem conv2_rows (x agg : FVec Ideal ⟨2, ![m, k]⟩ .f32) (x' agg' : FVec Ideal ⟨2, ![m', k]⟩ .f32)
    (W1 : FVec Ideal ⟨2, ![k, n]⟩ .f32) (b1 : FVec Ideal ⟨1, ![n]⟩ .f32) (W2 : FVec Ideal ⟨2, ![n, l]⟩ .f32)
    (b2 : FVec Ideal ⟨1, ![l]⟩ .f32) (r : Fin m) (r' : Fin m')
    (hx : ∀ c, x (ix2 r c) = x' (ix2 r' c)) (ha : ∀ c, agg (ix2 r c) = agg' (ix2 r' c)) (j : Fin l) :
    conv2 x agg W1 b1 W2 b2 (ix2 r j) = conv2 x' agg' W1 b1 W2 b2 (ix2 r' j) := by
  show dense _ W2 b2 r j = dense _ W2 b2 r' j
  exact dense_rows _ _ W2 b2 r r' (fun c => hidden_rows x agg x' agg' W1 b1 r r' hx ha c) j

/-! ## The two spellings of a dense layer -/

/-- The kernel's dense layer at an entry: the product into the zero splat of the operands (each through a change
    of float format), plus the bias cast to one row and laid along every row. -/
theorem kdense_apply (D : DotDims ⟨2, ![m, k]⟩ ⟨2, ![k, n]⟩ ⟨2, ![m, n]⟩) (hD : D = DotDims.plain m k n)
    (A : FVec Ideal ⟨2, ![m, k]⟩ .f32) (W : FVec Ideal ⟨2, ![k, n]⟩ .f32) (b : FVec Ideal ⟨1, ![n]⟩ .f32)
    (hf : FTy.bits .bf16 < FTy.bits .f32) (h1 : (⟨1, ![n]⟩ : Shape).ShapeCasts ⟨2, ![1, n]⟩)
    (h2 : (⟨2, ![1, n]⟩ : Shape).Broadcasts ⟨2, ![m, n]⟩) (p : Fin m) (q : Fin n) :
    addf (matmul D none (truncf .bf16 A hf) (truncf .bf16 W hf) (constant (F := Ideal) ⟨2, ![m, n]⟩ .f32 0x00000000#32))
        (broadcastTo ⟨2, ![m, n]⟩ (shapeCast ⟨2, ![1, n]⟩ b h1) h2) (ix2 p q)
      = dense A W b p q := by
  subst hD
  rw [addf_apply, Cert.LibMatmulPlain.matmul_plain_zero_apply, broadcastTo_1b_ab_apply, shapeCast_a_1a_apply]
  rfl

/-- The host's dense layer at an entry: the contraction over the shared axis, plus the bias broadcast to one row and
    then down the rows. -/
theorem hdense_apply (D : DotDims ⟨2, ![m, k]⟩ ⟨2, ![k, n]⟩ ⟨2, ![m, n]⟩) (hD : D = DotDims.plain m k n)
    (A : FVec Ideal ⟨2, ![m, k]⟩ .f32) (W : FVec Ideal ⟨2, ![k, n]⟩ .f32) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (q : Fin n) :
    addf (Host.dotGeneral D none A W) (broadcastInDim ⟨2, ![m, n]⟩ ![0, 1] h2 (broadcastInDim ⟨2, ![1, n]⟩ ![1] h1 b)) (ix2 p q)
      = dense A W b p q := by
  subst hD
  rw [addf_apply, StackMember.dotGeneral_plain_apply, broadcastInDim_oneRow_apply]
  refine congrArg (_ + ·) ?_
  refine broadcastInDim_apply ![1] h1 b (ix2 (0 : Fin 1) q) (ix1 q) fun a => ?_
  match a with
  | ⟨0, _⟩ =>
    show q.val = if n = 1 then 0 else q.val
    split
    · have := q.isLt; omega
    · rfl

end Cert.Gin

end
-- ==== Proof.Payload.lean ====
/-
  What each kernel body stores, entry by entry.

  The first body adds the neighbour sums to the features, multiplies by the first weights into a zero accumulator, adds
  the bias laid along the rows, cuts off at zero, multiplies by the second weights, adds the second bias and cuts off
  at zero again; the second body does the same without the last cut-off. Every operand of a product first goes through
  a change of float format, which is the identity on the extended reals. Entry (p, q) of the stored block is
  therefore the perceptron's entry (p, q) of the loaded blocks: `Gin.conv1` for the first body, `Gin.conv2` for the second.
-/
import proofs.«109134_j67731634258537_1_alg».proof.Proof.Gen.KernelIdeal.Skeleton
import proofs.«109134_j67731634258537_1_alg».proof.Proof.GinSpec

noncomputable section

namespace Cert.KernelIdeal.Payload

open Cert.KernelIdeal Cert.KernelIdeal.Gen Idealize.ShloMosaic Idealize.ShloMosaic.ValueIdx

/-- The printed dimension numbers of the three products are the plain ones: rows by columns, one contracted axis. -/
theorem dot96_plain : dot_S2000x96_S96x256_S2000x256_1_0_0_1_n_n = DotDims.plain 2000 96 256 := rfl
theorem dot256_plain : dot_S2000x256_S256x256_S2000x256_1_0_0_1_n_n = DotDims.plain 2000 256 256 := rfl

/-- The first body's stored value at (p, q) is the first convolution's perceptron of the loaded blocks there. -/
theorem pay0_apply (x0 x1 : Vec Ideal S2000x96 .f32) (x2 : Vec Ideal S96x256 .f32) (x3 : Vec Ideal S256 .f32)
    (x4 : Vec Ideal S256x256 .f32) (x5 : Vec Ideal S256 .f32) (p : Fin 2000) (q : Fin 256) :
    k0_pay1 (F := Ideal) x0 x1 x2 x3 x4 x5 (ix2 p q) = Gin.conv1 x0 x1 x2 x3 x4 x5 (ix2 p q) := by
  unfold k0_pay1
  rw [maximumf_apply, Gin.kdense_apply _ dot256_plain]
  show max (Gin.dense _ x4 x5 p q) _ = max (Gin.dense (Gin.hidden x0 x1 x2 x3) x4 x5 p q) Gin.zw
  refine congrArg (max · _) (Gin.dense_rows _ _ x4 x5 p p (fun c => ?_) q)
  rw [maximumf_apply, Gin.kdense_apply _ dot96_plain, shapeCast_self]
  show max (Gin.dense _ x2 x3 p c) _ = max (Gin.dense (fun i => x0 i + x1 i) x2 x3 p c) Gin.zw
  exact congrArg (fun A => max (Gin.dense A x2 x3 p c) Gin.zw) (funext fun i => addf_apply x0 x1 i)

/-- The second body's stored value at (p, q) is the second convolution's perceptron of the loaded blocks there. -/
theorem pay1_apply (x0 x1 : Vec Ideal S2000x256 .f32) (x2 : Vec Ideal S256x256 .f32) (x3 : Vec Ideal S256 .f32)
    (x4 : Vec Ideal S256x256 .f32) (x5 : Vec Ideal S256 .f32) (p : Fin 2000) (q : Fin 256) :
    k1_pay1 (F := Ideal) x0 x1 x2 x3 x4 x5 (ix2 p q) = Gin.conv2 x0 x1 x2 x3 x4 x5 (ix2 p q) := by
  unfold k1_pay1
  rw [Gin.kdense_apply _ dot256_plain]
  show Gin.dense _ x4 x5 p q = Gin.dense (Gin.hidden x0 x1 x2 x3) x4 x5 p q
  refine Gin.dense_rows _ _ x4 x5 p p (fun c => ?_) q
  rw [maximumf_apply, Gin.kdense_apply _ dot256_plain, shapeCast_self, shapeCast_self]
  show max (Gin.dense _ x2 x3 p c) _ = max (Gin.dense (fun i => x0 i + x1 i) x2 x3 p c) Gin.zw
  exact congrArg (fun A => max (Gin.dense A x2 x3 p c) Gin.zw) (funext fun i => addf_apply x0 x1 i)

end Cert.KernelIdeal.Payload

end
-- ==== Proof.Region0.lean ====
/-
  The first region's output array: the first convolution's perceptron of the arrays the region finds.

  The grid has 25 points. At point t the windows of the features and of the neighbour sums hold rows
  2000·t … 2000·t + 1999 of their arrays, the four parameter windows hold their whole arrays at every point, and the
  output window's block is rows 2000·t … 2000·t + 1999 of the result. An entry of the perceptron depends on its own
  row of the features and of the neighbour sums only, so what point t writes back is block t of ONE function of the
  whole arrays, `result`; the 25 blocks tile the 50000 rows (row r lies in block r / 2000), so the array ends at
  `result`. All of it holds whatever contents `V` the region is entered with.
-/
import proofs.«109134_j67731634258537_1_alg».proof.Proof.Gen.KernelIdeal.Frame
import proofs.«109134_j67731634258537_1_alg».proof.Proof.Payload
import Idealize.ShloMosaic.Lib.Pipeline.Value

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps, decided over the grid: the two row-blocked inputs and the output are at block (t, 0), the
    four parameter windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- What the output array ends holding: the perceptron of the features, the neighbour sums and the four parameters
    as the region finds them. -/
abbrev result (c : Dev nD) : S50000x256.Idx → EReal :=
  Gin.conv1 (m := 50000) (k := 96) (n := 256) (l := 256) (V c main_arg0) (V c main_v13) (V c main_arg3) (V c main_arg4)
    (V c main_arg5) (V c main_arg6)

/-! ## The windows' blocks, read -/

/-- Row p of the features' block at point t is row 2000·t + p of the features. -/
theorem rows_x (c : Dev nD) (t : Fin cfg0.N) (p : Fin 2000) (hp : 2000 * t.val + p.val < 50000) (k : Fin 96) :
    (iblk0 V c 0 t : S2000x96.Idx → EReal) (ix2 p k) = (V c main_arg0 : S50000x96.Idx → EReal) (ix2 ⟨2000 * t.val + p.val, hp⟩ k) := by
  obtain ⟨e0, e1, -⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 2000 + 1 * p.val = 2000 * t.val + p.val; rw [e0]; omega
  | ⟨1, _⟩ => show win0_0.index t (1 : Fin 2) * 96 + 1 * k.val = k.val; rw [e1]; omega

/-- Row p of the neighbour sums' block at point t is row 2000·t + p of the neighbour sums. -/
theorem rows_agg (c : Dev nD) (t : Fin cfg0.N) (p : Fin 2000) (hp : 2000 * t.val + p.val < 50000) (k : Fin 96) :
    (iblk0 V c 1 t : S2000x96.Idx → EReal) (ix2 p k) = (V c main_v13 : S50000x96.Idx → EReal) (ix2 ⟨2000 * t.val + p.val, hp⟩ k) := by
  obtain ⟨-, -, e0, e1, -⟩ := idx_facts t
  show V c main_v13 (((cfg0.win 1).blk t).view.emb (ix2 p k)) = _
  refine congrArg (V c main_v13) (funext fun a => Fin.ext ?_)
  match a with
  | ⟨0, _⟩ => show win0_1.index t (0 : Fin 2) * 2000 + 1 * p.val = 2000 * t.val + p.val; rw [e0]; omega
  | ⟨1, _⟩ => show win0_1.index t (1 : Fin 2) * 96 + 1 * k.val = k.val; rw [e1]; omega

/-- The first weights' window holds the whole array at every point. -/
theorem whole_w1 (c : Dev nD) (t : Fin cfg0.N) : (iblk0 V c 2 t : S96x256.Idx → EReal) = V c main_arg3 := by
  obtain ⟨-, -, -, -, e0, e1, -⟩ := idx_facts t
  funext y
  show V c main_arg3 (((cfg0.win 2).blk t).view.emb y) = V c main_arg3 y
  refine congrArg (V c main_arg3) (funext fun a => Fin.ext ?_)
  match a with
  | ⟨0, _⟩ => show win0_2.index t (0 : Fin 2) * 96 + 1 * (y 0).val = (y 0).val; rw [e0]; omega
  | ⟨1, _⟩ => show win0_2.index t (1 : Fin 2) * 256 + 1 * (y 1).val = (y 1).val; rw [e1]; omega

/-- The first bias's window holds the whole array at every point. -/
theorem whole_b1 (c : Dev nD) (t : Fin cfg0.N) : (iblk0 V c 3 t : S256.Idx → EReal) = V c main_arg4 := by
  obtain ⟨-, -, -, -, -, -, e0, -⟩ := idx_facts t
  funext y
  show V c main_arg4 (((cfg0.win 3).blk t).view.emb y) = V c main_arg4 y
  refine congrArg (V c main_arg4) (funext fun a => Fin.ext ?_)
  match a with
  | ⟨0, _⟩ => show win0_3.index t (0 : Fin 1) * 256 + 1 * (y 0).val = (y 0).val; rw [e0]; omega

/-- The second weights' window holds the whole array at every point. -/
theorem whole_w2 (c : Dev nD) (t : Fin cfg0.N) : (iblk0 V c 4 t : S256x256.Idx → EReal) = V c main_arg5 := by
  obtain ⟨-, -, -, -, -, -, -, e0, e1, -⟩ := idx_facts t
  funext y
  show V c main_arg5 (((cfg0.win 4).blk t).view.emb y) = V c main_arg5 y
  refine congrArg (V c main_arg5) (funext fun a => Fin.ext ?_)
  match a with
  | ⟨0, _⟩ => show win0_4.index t (0 : Fin 2) * 256 + 1 * (y 0).val = (y 0).val; rw [e0]; omega
  | ⟨1, _⟩ => show win0_4.index t (1 : Fin 2) * 256 + 1 * (y 1).val = (y 1).val; rw [e1]; omega

/-- The second bias's window holds the whole array at every point. -/
theorem whole_b2 (c : Dev nD) (t : Fin cfg0.N) : (iblk0 V c 5 t : S256.Idx → EReal) = V c main_arg6 := by
  obtain ⟨-, -, -, -, -, -, -, -, -, e0, -⟩ := idx_facts t
  funext y
  show V c main_arg6 (((cfg0.win 5).blk t).view.emb y) = V c main_arg6 y
  refine congrArg (V c main_arg6) (funext fun a => Fin.ext ?_)
  match a with
  | ⟨0, _⟩ => show win0_5.index t (0 : Fin 1) * 256 + 1 * (y 0).val = (y 0).val; rw [e0]; omega

/-! ## What a point writes back, and the whole array -/

/-- What point t writes back is block t of `result`. -/
theorem flushed_eq (c : Dev nD) (t : Fin cfg0.N) :
    (dat0 V c).flushed 6 t = ((cfg0.win 6).blk t).view.read (Elt Ideal) (result V c) := by
  have hN : grid0.N = 25 := N_0
  have ht : t.val < 25 := by have h : t.val < grid0.N := t.isLt; omega
  show (cfg0.win 6).cut (grid0.coords t) ((dat0 V c).after 6 t) = _
  rw [after0_6]
  unfold out0_6
  rw [View.canon_unit_zero hz2]
  simp only [View.ld_unit_zero (S := S2000x96) hz2, View.ld_unit_zero (S := S96x256) hz2, View.ld_unit_zero (S := S256) hz1,
    View.ld_unit_zero (S := S256x256) hz2]
  funext j
  obtain ⟨p, q, rfl⟩ : ∃ (p : Fin 2000) (q : Fin 256), j = ix2 p q := ⟨j 0, j 1, eq_ix2 j⟩
  obtain ⟨-, -, -, -, -, -, -, -, -, -, e0, e1⟩ := idx_facts t
  have hp : 2000 * t.val + p.val < 50000 := by have := p.isLt; omega
  have hemb : ((cfg0.win 6).blk t).view.emb (ix2 p q) = (ix2 ⟨2000 * t.val + p.val, hp⟩ q : S50000x256.Idx) :=
    funext fun a => Fin.ext (by
      match a with
      | ⟨0, _⟩ => show win0_6.index t (0 : Fin 2) * 2000 + 1 * p.val = 2000 * t.val + p.val; rw [e0]; omega
      | ⟨1, _⟩ => show win0_6.index t (1 : Fin 2) * 256 + 1 * q.val = q.val; rw [e1]; omega)
  show k0_pay1 (iblk0 V c 0 t) (iblk0 V c 1 t) (iblk0 V c 2 t) (iblk0 V c 3 t) (iblk0 V c 4 t) (iblk0 V c 5 t) (ix2 p q)
    = result V c (((cfg0.win 6).blk t).view.emb (ix2 p q))
  refine ((Payload.pay0_apply (iblk0 V c 0 t) (iblk0 V c 1 t) (iblk0 V c 2 t) (iblk0 V c 3 t) (iblk0 V c 4 t) (iblk0 V c 5 t)
    p q).trans ?_).trans (congrArg (result V c) hemb.symm)
  rw [whole_w1 V c t, whole_b1 V c t, whole_w2 V c t, whole_b2 V c t]
  exact Gin.conv1_rows _ _ _ _ _ _ _ _ p ⟨2000 * t.val + p.val, hp⟩ (rows_x V c t p hp) (rows_agg V c t p hp) q

/-- An index of the result array is in point t's block iff each coordinate is in the block's range on its axis. -/
theorem mem_blk (t : Fin cfg0.N) (i : S50000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_v14).slice (win0_6.rect t)).set ↔ _
  rw [View.set_slice_whole, Rect.mem_set_unit]
  exact Iff.rfl

/-- The 25 blocks tile the array, so it ends holding `result`. -/
theorem arr_eq (c : Dev nD) : (dat0 V c).arrAt 6 cfg0.N = result V c :=
  (dat0 V c).arrAt_eq_of_cover 6 (result V c) (fun t _ => flushed_eq V c t) fun i => by
    have hi0 : (i 0).val < 50000 := (i 0).isLt
    have hi1 : (i 1).val < 256 := (i 1).isLt
    have hN : grid0.N = 25 := N_0
    have hlt : (i 0).val / 2000 < grid0.N := by rw [hN]; omega
    obtain ⟨-, -, -, -, -, -, -, -, -, -, e0, e1⟩ := idx_facts ⟨(i 0).val / 2000, hlt⟩
    refine ⟨⟨(i 0).val / 2000, hlt⟩, flush0_6 _, ?_⟩
    rw [mem_blk]
    intro a
    match a with
    | ⟨0, _⟩ =>
      show win0_6.index ⟨(i 0).val / 2000, hlt⟩ (0 : Fin 2) * 2000 ≤ (i 0).val
        ∧ (i 0).val < win0_6.index ⟨(i 0).val / 2000, hlt⟩ (0 : Fin 2) * 2000 + 2000
      rw [e0]; show (i 0).val / 2000 * 2000 ≤ (i 0).val ∧ (i 0).val < (i 0).val / 2000 * 2000 + 2000; omega
    | ⟨1, _⟩ =>
      show win0_6.index ⟨(i 0).val / 2000, hlt⟩ (1 : Fin 2) * 256 ≤ (i 1).val
        ∧ (i 1).val < win0_6.index ⟨(i 0).val / 2000, hlt⟩ (1 : Fin 2) * 256 + 256
      rw [e1]; omega

end Cert.KernelIdeal.Region0

end
-- ==== Proof.Region1.lean ====
/-
  The second region's output array: the second convolution's perceptron of the arrays the region finds.

  The grid and the windows are laid out as in the first region: at point t the windows of the first convolution's
  result and of its neighbour sums hold rows 2000·t … 2000·t + 1999, the four parameter windows hold their whole
  arrays, and the output block is rows 2000·t … 2000·t + 1999. The body has no last cut-off at zero. What point t
  writes back is block t of ONE function of the whole arrays, `result`, and the 25 blocks tile the 50000 rows, so the
  array ends at `result`, whatever contents `V` the region is entered with.
-/
import proofs.«109134_j67731634258537_1_alg».proof.Proof.Gen.KernelIdeal.Frame
import proofs.«109134_j67731634258537_1_alg».proof.Proof.Payload
import Idealize.ShloMosaic.Lib.Pipeline.Value

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps, decided over the grid: the two row-blocked inputs and the output are at block (t, 0), the
    four parameter windows at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

/-- What the output array ends holding: the second perceptron of the first convolution's result, its neighbour sums
    and the four parameters as the region finds them. -/
abbrev result (c : Dev nD) : S50000x256.Idx → EReal :=
  Gin.conv2 (m := 50000) (k := 256) (n := 256) (l := 256) (V c main_v14) (V c main_v24) (V c main_arg7) (V c main_arg8)
    (V c main_arg9) (V c main_arg10)

/-! ## The windows' blocks, read -/

/-- Row p of the first result's block at point t is row 2000·t + p of the first result. -/
theorem rows_x (c : Dev nD) (t : Fin cfg1.N) (p : Fin 2000) (hp : 2000 * t.val + p.val < 50000) (k : Fin 256) :
    (iblk1 V c 0 t : S2000x256.Idx → EReal) (ix2 p k) = (V c main_v14 : S50000x256.Idx → EReal) (ix2 ⟨2000 * t.val + p.val, hp⟩ k) := by
  obtain ⟨e0, e1, -⟩ := idx_facts t
  show V c main_v14 (((cfg1.win 0).blk t).view.emb (ix2 p k)) = _
  refine congrArg (V c main_v14) (funext fun a => Fin.ext ?_)
  match a with
  | ⟨0, _⟩ => show win1_0.index t (0 : Fin 2) * 2000 + 1 * p.val = 2000 * t.val + p.val; rw [e0]; omega
  | ⟨1, _⟩ => show win1_0.index t (1 : Fin 2) * 256 + 1 * k.val = k.val; rw [e1]; omega

/-- Row p of the neighbour sums' block at point t is row 2000·t + p of the neighbour sums. -/
theorem rows_agg (c : Dev nD) (t : Fin cfg1.N) (p : Fin 2000) (hp : 2000 * t.val + p.val < 50000) (k : Fin 256) :
    (iblk1 V c 1 t : S2000x256.Idx → EReal) (ix2 p k) = (V c main_v24 : S50000x256.Idx → EReal) (ix2 ⟨2000 * t.val + p.val, hp⟩ k) := by
  obtain ⟨-, -, e0, e1, -⟩ := idx_facts t
  show V c main_v24 (((cfg1.win 1).blk t).view.emb (ix2 p k)) = _
  refine congrArg (V c main_v24) (funext fun a => Fin.ext ?_)
  match a with
  | ⟨0, _⟩ => show win1_1.index t (0 : Fin 2) * 2000 + 1 * p.val = 2000 * t.val + p.val; rw [e0]; omega
  | ⟨1, _⟩ => show win1_1.index t (1 : Fin 2) * 256 + 1 * k.val = k.val; rw [e1]; omega

/-- The first weights' window holds the whole array at every point. -/
theorem whole_w1 (c : Dev nD) (t : Fin cfg1.N) : (iblk1 V c 2 t : S256x256.Idx → EReal) = V c main_arg7 := by
  obtain ⟨-, -, -, -, e0, e1, -⟩ := idx_facts t
  funext y
  show V c main_arg7 (((cfg1.win 2).blk t).view.emb y) = V c main_arg7 y
  refine congrArg (V c main_arg7) (funext fun a => Fin.ext ?_)
  match a with
  | ⟨0, _⟩ => show win1_2.index t (0 : Fin 2) * 256 + 1 * (y 0).val = (y 0).val; rw [e0]; omega
  | ⟨1, _⟩ => show win1_2.index t (1 : Fin 2) * 256 + 1 * (y 1).val = (y 1).val; rw [e1]; omega

/-- The first bias's window holds the whole array at every point. -/
theorem whole_b1 (c : Dev nD) (t : Fin cfg1.N) : (iblk1 V c 3 t : S256.Idx → EReal) = V c main_arg8 := by
  obtain ⟨-, -, -, -, -, -, e0, -⟩ := idx_facts t
  funext y
  show V c main_arg8 (((cfg1.win 3).blk t).view.emb y) = V c main_arg8 y
  refine congrArg (V c main_arg8) (funext fun a => Fin.ext ?_)
  match a with
  | ⟨0, _⟩ => show win1_3.index t (0 : Fin 1) * 256 + 1 * (y 0).val = (y 0).val; rw [e0]; omega

/-- The second weights' window holds the whole array at every point. -/
theorem whole_w2 (c : Dev nD) (t : Fin cfg1.N) : (iblk1 V c 4 t : S256x256.Idx → EReal) = V c main_arg9 := by
  obtain ⟨-, -, -, -, -, -, -, e0, e1, -⟩ := idx_facts t
  funext y
  show V c main_arg9 (((cfg1.win 4).blk t).view.emb y) = V c main_arg9 y
  refine congrArg (V c main_arg9) (funext fun a => Fin.ext ?_)
  match a with
  | ⟨0, _⟩ => show win1_4.index t (0 : Fin 2) * 256 + 1 * (y 0).val = (y 0).val; rw [e0]; omega
  | ⟨1, _⟩ => show win1_4.index t (1 : Fin 2) * 256 + 1 * (y 1).val = (y 1).val; rw [e1]; omega

/-- The second bias's window holds the whole array at every point. -/
theorem whole_b2 (c : Dev nD) (t : Fin cfg1.N) : (iblk1 V c 5 t : S256.Idx → EReal) = V c main_arg10 := by
  obtain ⟨-, -, -, -, -, -, -, -, -, e0, -⟩ := idx_facts t
  funext y
  show V c main_arg10 (((cfg1.win 5).blk t).view.emb y) = V c main_arg10 y
  refine congrArg (V c main_arg10) (funext fun a => Fin.ext ?_)
  match a with
  | ⟨0, _⟩ => show win1_5.index t (0 : Fin 1) * 256 + 1 * (y 0).val = (y 0).val; rw [e0]; omega

/-! ## What a point writes back, and the whole array -/

/-- What point t writes back is block t of `result`. -/
theorem flushed_eq (c : Dev nD) (t : Fin cfg1.N) :
    (dat1 V c).flushed 6 t = ((cfg1.win 6).blk t).view.read (Elt Ideal) (result V c) := by
  have hN : grid1.N = 25 := N_1
  have ht : t.val < 25 := by have h : t.val < grid1.N := t.isLt; omega
  show (cfg1.win 6).cut (grid1.coords t) ((dat1 V c).after 6 t) = _
  rw [after1_6]
  unfold out1_6
  rw [View.canon_unit_zero hz2]
  simp only [View.ld_unit_zero (S := S2000x256) hz2, View.ld_unit_zero (S := S256x256) hz2, View.ld_unit_zero (S := S256) hz1,
    View.ld_unit_zero (S := S256x256) hz2]
  funext j
  obtain ⟨p, q, rfl⟩ : ∃ (p : Fin 2000) (q : Fin 256), j = ix2 p q := ⟨j 0, j 1, eq_ix2 j⟩
  obtain ⟨-, -, -, -, -, -, -, -, -, -, e0, e1⟩ := idx_facts t
  have hp : 2000 * t.val + p.val < 50000 := by have := p.isLt; omega
  have hemb : ((cfg1.win 6).blk t).view.emb (ix2 p q) = (ix2 ⟨2000 * t.val + p.val, hp⟩ q : S50000x256.Idx) :=
    funext fun a => Fin.ext (by
      match a with
      | ⟨0, _⟩ => show win1_6.index t (0 : Fin 2) * 2000 + 1 * p.val = 2000 * t.val + p.val; rw [e0]; omega
      | ⟨1, _⟩ => show win1_6.index t (1 : Fin 2) * 256 + 1 * q.val = q.val; rw [e1]; omega)
  show k1_pay1 (iblk1 V c 0 t) (iblk1 V c 1 t) (iblk1 V c 2 t) (iblk1 V c 3 t) (iblk1 V c 4 t) (iblk1 V c 5 t) (ix2 p q)
    = result V c (((cfg1.win 6).blk t).view.emb (ix2 p q))
  refine ((Payload.pay1_apply (iblk1 V c 0 t) (iblk1 V c 1 t) (iblk1 V c 2 t) (iblk1 V c 3 t) (iblk1 V c 4 t) (iblk1 V c 5 t)
    p q).trans ?_).trans (congrArg (result V c) hemb.symm)
  rw [whole_w1 V c t, whole_b1 V c t, whole_w2 V c t, whole_b2 V c t]
  exact Gin.conv2_rows _ _ _ _ _ _ _ _ p ⟨2000 * t.val + p.val, hp⟩ (rows_x V c t p hp) (rows_agg V c t p hp) q

/-- An index of the result array is in point t's block iff each coordinate is in the block's range on its axis. -/
theorem mem_blk (t : Fin cfg1.N) (i : S50000x256.Idx) :
    i ∈ ((cfg1.win 6).blk t).view.set ↔ ∀ a : Fin 2, win1_6.index t a * S2000x256.size a ≤ (i a).val
      ∧ (i a).val < win1_6.index t a * S2000x256.size a + S2000x256.size a := by
  show i ∈ ((View.whole main_v25).slice (win1_6.rect t)).set ↔ _
  rw [View.set_slice_whole, Rect.mem_set_unit]
  exact Iff.rfl

/-- The 25 blocks tile the array, so it ends holding `result`. -/
theorem arr_eq (c : Dev nD) : (dat1 V c).arrAt 6 cfg1.N = result V c :=
  (dat1 V c).arrAt_eq_of_cover 6 (result V c) (fun t _ => flushed_eq V c t) fun i => by
    have hi0 : (i 0).val < 50000 := (i 0).isLt
    have hi1 : (i 1).val < 256 := (i 1).isLt
    have hN : grid1.N = 25 := N_1
    have hlt : (i 0).val / 2000 < grid1.N := by rw [hN]; omega
    obtain ⟨-, -, -, -, -, -, -, -, -, -, e0, e1⟩ := idx_facts ⟨(i 0).val / 2000, hlt⟩
    refine ⟨⟨(i 0).val / 2000, hlt⟩, flush1_6 _, ?_⟩
    rw [mem_blk]
    intro a
    match a with
    | ⟨0, _⟩ =>
      show win1_6.index ⟨(i 0).val / 2000, hlt⟩ (0 : Fin 2) * 2000 ≤ (i 0).val
        ∧ (i 0).val < win1_6.index ⟨(i 0).val / 2000, hlt⟩ (0 : Fin 2) * 2000 + 2000
      rw [e0]; show (i 0).val / 2000 * 2000 ≤ (i 0).val ∧ (i 0).val < (i 0).val / 2000 * 2000 + 2000; omega
    | ⟨1, _⟩ =>
      show win1_6.index ⟨(i 0).val / 2000, hlt⟩ (1 : Fin 2) * 256 ≤ (i 1).val
        ∧ (i 1).val < win1_6.index ⟨(i 0).val / 2000, hlt⟩ (1 : Fin 2) * 256 + 256
      rw [e1]; omega

end Cert.KernelIdeal.Region1

end
-- ==== Proof.RefMlp.lean ====
/-
  The reference's two perceptrons are the specification's.

  The reference spells a dense layer as a contraction over the shared axis plus the bias broadcast to one row and then
  down the rows, and a cut-off at zero as the maximum with the broadcast zero. Read at an entry (r, j), its first
  convolution's result is `Gin.conv1` of the features, the neighbour sums (the scatter-add of the gathered rows) and
  the four parameters, and its second convolution's result is `Gin.conv2` of the first result, its neighbour sums and
  the other four parameters.
-/
import proofs.«109134_j67731634258537_1_alg».proof.Proof.Gen.ReferenceIdeal.Read
import proofs.«109134_j67731634258537_1_alg».proof.Proof.GinSpec

noncomputable section

namespace Cert.ReferenceIdeal.RefMlp

open Cert.ReferenceIdeal Cert.ReferenceIdeal.Read Idealize.ShloMosaic Idealize.ShloMosaic.ValueIdx

/-- The printed dimension numbers of the reference's products are the plain ones. -/
theorem dot96_plain : dot_S50000x96_S96x256_S50000x256_1_0_0_1_n_n = DotDims.plain 50000 96 256 := rfl
theorem dot256_plain : dot_S50000x256_S256x256_S50000x256_1_0_0_1_n_n = DotDims.plain 50000 256 256 := rfl

/-- The broadcast zero, read at an entry, is the zero word. -/
theorem zero_apply (h : S_.BroadcastsInDim S50000x256 (![] : Fin 0 → Fin S50000x256.rank)) (i : S50000x256.Idx) :
    broadcastInDim S50000x256 ![] h (constant (F := Ideal) S_ .f32 0x00000000#32) i = Gin.zw :=
  broadcastInDim_apply _ h _ i (fun a => a.elim0) (fun a => a.elim0)

/-- The first convolution's result is the perceptron of the features, their neighbour sums and the first four
    parameters. -/
theorem conv1_eq (x0 : (⟨S50000x96, .f32⟩ : BufTy).Contents (Elt Ideal)) (x1 : (⟨S2x800000, .i32⟩ : BufTy).Contents (Elt Ideal))
    (x3 : (⟨S96x256, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal)) :
    val_main_v24 (F := Ideal) x0 x1 x3 x4 x5 x6
      = Gin.conv1 (m := 50000) (k := 96) (n := 256) (l := 256) x0 (val_main_v13 (F := Ideal) x0 x1) x3 x4 x5 x6 := by
  funext i
  obtain ⟨r, j, rfl⟩ : ∃ (r : Fin 50000) (j : Fin 256), i = ix2 r j := ⟨i 0, i 1, eq_ix2 i⟩
  unfold val_main_v24 val_main_v23 val_main_v20 val_main_v22 val_main_v21 val_main_call1_v0 val_main_call1_cst
    val_main_v19 val_main_v18 val_main_v15 val_main_v17 val_main_v16 val_main_call0_v0 val_main_call0_cst val_main_v14
  generalize val_main_v13 (F := Ideal) x0 x1 = agg
  rw [maximumf_apply, Gin.hdense_apply _ dot256_plain, zero_apply]
  show max (Gin.dense _ x5 x6 r j) Gin.zw = max (Gin.dense (Gin.hidden x0 agg x3 x4) x5 x6 r j) Gin.zw
  refine congrArg (max · _) (Gin.dense_rows _ _ x5 x6 r r (fun c => ?_) j)
  rw [maximumf_apply, Gin.hdense_apply _ dot96_plain, zero_apply]
  show max (Gin.dense _ x3 x4 r c) Gin.zw = max (Gin.dense (fun i => x0 i + agg i) x3 x4 r c) Gin.zw
  exact congrArg (fun A => max (Gin.dense A x3 x4 r c) Gin.zw) (funext fun i => addf_apply x0 agg i)

/-- The second convolution's result is the second perceptron of the first result, its neighbour sums and the other
    four parameters. -/
theorem conv2_eq (x0 : (⟨S50000x96, .f32⟩ : BufTy).Contents (Elt Ideal)) (x1 : (⟨S2x800000, .i32⟩ : BufTy).Contents (Elt Ideal))
    (x3 : (⟨S96x256, .f32⟩ : BufTy).Contents (Elt Ideal)) (x4 : (⟨S256, .f32⟩ : BufTy).Contents (Elt Ideal))
    (x5 : (⟨S256x256, .f32⟩ : BufTy).Contents (Elt Ideal)) (x6 : (⟨S256, .f32⟩ : BufTy).Contents (Elt Ideal))
    (x7 : (⟨S256x256, .f32⟩ : BufTy).Contents (Elt Ideal)) (x8 : (⟨S256, .f32⟩ : BufTy).Contents (Elt Ideal))
    (x9 : (⟨S256x256, .f32⟩ : BufTy).Contents (Elt Ideal)) (x10 : (⟨S256, .f32⟩ : BufTy).Contents (Elt Ideal)) :
    val_main_v44 (F := Ideal) x0 x1 x3 x4 x5 x6 x7 x8 x9 x10
      = Gin.conv2 (m := 50000) (k := 256) (n := 256) (l := 256) (val_main_v24 (F := Ideal) x0 x1 x3 x4 x5 x6)
          (val_main_v34 (F := Ideal) x0 x1 x3 x4 x5 x6) x7 x8 x9 x10 := by
  funext i
  obtain ⟨r, j, rfl⟩ : ∃ (r : Fin 50000) (j : Fin 256), i = ix2 r j := ⟨i 0, i 1, eq_ix2 i⟩
  unfold val_main_v44 val_main_v41 val_main_v43 val_main_v42 val_main_v40 val_main_v39 val_main_v36 val_main_v38 val_main_v37
    val_main_call2_v0 val_main_call2_cst val_main_v35
  generalize val_main_v34 (F := Ideal) x0 x1 x3 x4 x5 x6 = agg
  generalize val_main_v24 (F := Ideal) x0 x1 x3 x4 x5 x6 = h
  rw [Gin.hdense_apply _ dot256_plain]
  show Gin.dense _ x9 x10 r j = Gin.dense (Gin.hidden h agg x7 x8) x9 x10 r j
  refine Gin.dense_rows _ _ x9 x10 r r (fun c => ?_) j
  rw [maximumf_apply, Gin.hdense_apply _ dot256_plain, zero_apply]
  show max (Gin.dense _ x7 x8 r c) Gin.zw = max (Gin.dense (fun i => h i + agg i) x7 x8 r c) Gin.zw
  exact congrArg (fun A => max (Gin.dense A x7 x8 r c) Gin.zw) (funext fun i => addf_apply h agg i)

end Cert.ReferenceIdeal.RefMlp

end
-- ==== Proof.Bridge.lean ====
/-
  The buffer contents at the segment boundaries of the idealized kernel's run, read as the reference's stages.

  The two programs share every host operation: the edge list's two rows, the wrap of negative indices, the gather of
  source rows, the scatter-add at the destinations, the mean over each graph and the last linear layer are the same
  operations on both sides, and each region's output array is the reference's perceptron stage (`Region0.arr_eq`,
  `Region1.arr_eq` with `RefMlp.conv1_eq`, `RefMlp.conv2_eq`). So, boundary by boundary:
    after the first stretch    the neighbour sums of the features are the reference's;
    after the first region     the first convolution's result is the reference's;
    after the second stretch   the neighbour sums of that result are the reference's;
    after the second region    the second convolution's result is the reference's;
    at the return              the result buffer holds the reference's result, as a function of the thirteen arguments.
  A buffer that a stretch or a region does not write is read back through it unchanged.
-/
import proofs.«109134_j67731634258537_1_alg».proof.Proof.KernelRun
import proofs.«109134_j67731634258537_1_alg».proof.Proof.Region0
import proofs.«109134_j67731634258537_1_alg».proof.Proof.Region1
import proofs.«109134_j67731634258537_1_alg».proof.Proof.RefMlp

set_option maxRecDepth 16384

noncomputable section

namespace Cert.Bridge

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first stretch -/

theorem W1_arg0 : W1 m ρ c (Proc.devRef .tc main_arg0) = m ((c : Thread nD τ).loc main_arg0) := by
  show StableHlo.after hostOps0 (W0 m ρ c) (Proc.devRef .tc main_arg0) = _
  after_results
theorem W1_arg2 : W1 m ρ c (Proc.devRef .tc main_arg2) = m ((c : Thread nD τ).loc main_arg2) := by
  show StableHlo.after hostOps0 (W0 m ρ c) (Proc.devRef .tc main_arg2) = _
  after_results
theorem W1_arg3 : W1 m ρ c (Proc.devRef .tc main_arg3) = m ((c : Thread nD τ).loc main_arg3) := by
  show StableHlo.after hostOps0 (W0 m ρ c) (Proc.devRef .tc main_arg3) = _
  after_results
theorem W1_arg4 : W1 m ρ c (Proc.devRef .tc main_arg4) = m ((c : Thread nD τ).loc main_arg4) := by
  show StableHlo.after hostOps0 (W0 m ρ c) (Proc.devRef .tc main_arg4) = _
  after_results
theorem W1_arg5 : W1 m ρ c (Proc.devRef .tc main_arg5) = m ((c : Thread nD τ).loc main_arg5) := by
  show StableHlo.after hostOps0 (W0 m ρ c) (Proc.devRef .tc main_arg5) = _
  after_results
theorem W1_arg6 : W1 m ρ c (Proc.devRef .tc main_arg6) = m ((c : Thread nD τ).loc main_arg6) := by
  show StableHlo.after hostOps0 (W0 m ρ c) (Proc.devRef .tc main_arg6) = _
  after_results
theorem W1_arg7 : W1 m ρ c (Proc.devRef .tc main_arg7) = m ((c : Thread nD τ).loc main_arg7) := by
  show StableHlo.after hostOps0 (W0 m ρ c) (Proc.devRef .tc main_arg7) = _
  after_results
theorem W1_arg8 : W1 m ρ c (Proc.devRef .tc main_arg8) = m ((c : Thread nD τ).loc main_arg8) := by
  show StableHlo.after hostOps0 (W0 m ρ c) (Proc.devRef .tc main_arg8) = _
  after_results
theorem W1_arg9 : W1 m ρ c (Proc.devRef .tc main_arg9) = m ((c : Thread nD τ).loc main_arg9) := by
  show StableHlo.after hostOps0 (W0 m ρ c) (Proc.devRef .tc main_arg9) = _
  after_results
theorem W1_arg10 : W1 m ρ c (Proc.devRef .tc main_arg10) = m ((c : Thread nD τ).loc main_arg10) := by
  show StableHlo.after hostOps0 (W0 m ρ c) (Proc.devRef .tc main_arg10) = _
  after_results
theorem W1_arg11 : W1 m ρ c (Proc.devRef .tc main_arg11) = m ((c : Thread nD τ).loc main_arg11) := by
  show StableHlo.after hostOps0 (W0 m ρ c) (Proc.devRef .tc main_arg11) = _
  after_results
theorem W1_arg12 : W1 m ρ c (Proc.devRef .tc main_arg12) = m ((c : Thread nD τ).loc main_arg12) := by
  show StableHlo.after hostOps0 (W0 m ρ c) (Proc.devRef .tc main_arg12) = _
  after_results

/-- The sources' row of the edge list, as a vector. -/
theorem W1_v1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results
  rfl

/-- The destinations' row of the edge list, as a vector. -/
theorem W1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results
  rfl

/-- The neighbour sums of the features: the gathered source rows scatter-added at the destinations. -/
theorem W1_v13 : W1 m ρ c (Proc.devRef .tc main_v13) = Cert.ReferenceIdeal.Read.val_main_v13 (F := Ideal) (m ((c : Thread nD τ).loc main_arg0)) (m ((c : Thread nD τ).loc main_arg1)) := by
  show StableHlo.after hostOps0 (W0 m ρ c) (Proc.devRef .tc main_v13) = _
  after_results
  rfl

/-! ## After the first region -/

/-- The first region's output array is the reference's first convolution. -/
theorem W2_v14 : W2 m ρ c (Proc.devRef .tc main_v14) = Cert.ReferenceIdeal.Read.val_main_v24 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W2_arr m ρ c 6).trans ((Cert.KernelIdeal.Region0.arr_eq (V1 m ρ) c).trans ?_)
  show Gin.conv1 (m := 50000) (k := 96) (n := 256) (l := 256) (W1 m ρ c (Proc.devRef .tc main_arg0)) (W1 m ρ c (Proc.devRef .tc main_v13))
    (W1 m ρ c (Proc.devRef .tc main_arg3)) (W1 m ρ c (Proc.devRef .tc main_arg4)) (W1 m ρ c (Proc.devRef .tc main_arg5)) (W1 m ρ c (Proc.devRef .tc main_arg6)) = _
  rw [W1_arg0, W1_v13, W1_arg3, W1_arg4, W1_arg5, W1_arg6]
  exact (Cert.ReferenceIdeal.RefMlp.conv1_eq _ _ _ _ _ _).symm

theorem W2_v1 : W2 m ρ c (Proc.devRef .tc main_v1) = Cert.ReferenceIdeal.Read.val_main_v1 (F := Ideal) (m ((c : Thread nD τ).loc main_arg1)) :=
  (W2_of_ne m ρ c main_v1 (by decide)).trans (W1_v1 m ρ c)
theorem W2_v3 : W2 m ρ c (Proc.devRef .tc main_v3) = Cert.ReferenceIdeal.Read.val_main_v3 (F := Ideal) (m ((c : Thread nD τ).loc main_arg1)) :=
  (W2_of_ne m ρ c main_v3 (by decide)).trans (W1_v3 m ρ c)
theorem W2_arg2 : W2 m ρ c (Proc.devRef .tc main_arg2) = m ((c : Thread nD τ).loc main_arg2) :=
  (W2_of_ne m ρ c main_arg2 (by decide)).trans (W1_arg2 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)
theorem W2_arg10 : W2 m ρ c (Proc.devRef .tc main_arg10) = m ((c : Thread nD τ).loc main_arg10) :=
  (W2_of_ne m ρ c main_arg10 (by decide)).trans (W1_arg10 m ρ c)
theorem W2_arg11 : W2 m ρ c (Proc.devRef .tc main_arg11) = m ((c : Thread nD τ).loc main_arg11) :=
  (W2_of_ne m ρ c main_arg11 (by decide)).trans (W1_arg11 m ρ c)
theorem W2_arg12 : W2 m ρ c (Proc.devRef .tc main_arg12) = m ((c : Thread nD τ).loc main_arg12) :=
  (W2_of_ne m ρ c main_arg12 (by decide)).trans (W1_arg12 m ρ c)

/-! ## After the second stretch -/

theorem W3_arg2 : W3 m ρ c (Proc.devRef .tc main_arg2) = m ((c : Thread nD τ).loc main_arg2) := by
  show StableHlo.after hostOps1 (W2 m ρ c) (Proc.devRef .tc main_arg2) = _
  after_results
  exact W2_arg2 m ρ c
theorem W3_arg7 : W3 m ρ c (Proc.devRef .tc main_arg7) = m ((c : Thread nD τ).loc main_arg7) := by
  show StableHlo.after hostOps1 (W2 m ρ c) (Proc.devRef .tc main_arg7) = _
  after_results
  exact W2_arg7 m ρ c
theorem W3_arg8 : W3 m ρ c (Proc.devRef .tc main_arg8) = m ((c : Thread nD τ).loc main_arg8) := by
  show StableHlo.after hostOps1 (W2 m ρ c) (Proc.devRef .tc main_arg8) = _
  after_results
  exact W2_arg8 m ρ c
theorem W3_arg9 : W3 m ρ c (Proc.devRef .tc main_arg9) = m ((c : Thread nD τ).loc main_arg9) := by
  show StableHlo.after hostOps1 (W2 m ρ c) (Proc.devRef .tc main_arg9) = _
  after_results
  exact W2_arg9 m ρ c
theorem W3_arg10 : W3 m ρ c (Proc.devRef .tc main_arg10) = m ((c : Thread nD τ).loc main_arg10) := by
  show StableHlo.after hostOps1 (W2 m ρ c) (Proc.devRef .tc main_arg10) = _
  after_results
  exact W2_arg10 m ρ c
theorem W3_arg11 : W3 m ρ c (Proc.devRef .tc main_arg11) = m ((c : Thread nD τ).loc main_arg11) := by
  show StableHlo.after hostOps1 (W2 m ρ c) (Proc.devRef .tc main_arg11) = _
  after_results
  exact W2_arg11 m ρ c
theorem W3_arg12 : W3 m ρ c (Proc.devRef .tc main_arg12) = m ((c : Thread nD τ).loc main_arg12) := by
  show StableHlo.after hostOps1 (W2 m ρ c) (Proc.devRef .tc main_arg12) = _
  after_results
  exact W2_arg12 m ρ c

/-- The first convolution's result is not written by the second stretch. -/
theorem W3_v14 : W3 m ρ c (Proc.devRef .tc main_v14) = Cert.ReferenceIdeal.Read.val_main_v24 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v14) = _
  after_results
  exact W2_v14 m ρ c

/-- The neighbour sums of the first convolution's result. -/
theorem W3_v24 : W3 m ρ c (Proc.devRef .tc main_v24) = Cert.ReferenceIdeal.Read.val_main_v34 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps1 (W2 m ρ c) (Proc.devRef .tc main_v24) = _
  after_results
  rw [W2_v14, W2_v1, W2_v3]
  rfl

/-! ## After the second region -/

/-- The second region's output array is the reference's second convolution. -/
theorem W4_v25 : W4 m ρ c (Proc.devRef .tc main_v25) = Cert.ReferenceIdeal.Read.val_main_v44 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W4_arr m ρ c 6).trans ((Cert.KernelIdeal.Region1.arr_eq (V3 m ρ) c).trans ?_)
  show Gin.conv2 (m := 50000) (k := 256) (n := 256) (l := 256) (W3 m ρ c (Proc.devRef .tc main_v14)) (W3 m ρ c (Proc.devRef .tc main_v24))
    (W3 m ρ c (Proc.devRef .tc main_arg7)) (W3 m ρ c (Proc.devRef .tc main_arg8)) (W3 m ρ c (Proc.devRef .tc main_arg9)) (W3 m ρ c (Proc.devRef .tc main_arg10)) = _
  rw [W3_v14, W3_v24, W3_arg7, W3_arg8, W3_arg9, W3_arg10]
  exact (Cert.ReferenceIdeal.RefMlp.conv2_eq _ _ _ _ _ _ _ _ _ _).symm

theorem W4_arg2 : W4 m ρ c (Proc.devRef .tc main_arg2) = m ((c : Thread nD τ).loc main_arg2) :=
  (W4_of_ne m ρ c main_arg2 (by decide)).trans (W3_arg2 m ρ c)
theorem W4_arg11 : W4 m ρ c (Proc.devRef .tc main_arg11) = m ((c : Thread nD τ).loc main_arg11) :=
  (W4_of_ne m ρ c main_arg11 (by decide)).trans (W3_arg11 m ρ c)
theorem W4_arg12 : W4 m ρ c (Proc.devRef .tc main_arg12) = m ((c : Thread nD τ).loc main_arg12) :=
  (W4_of_ne m ρ c main_arg12 (by decide)).trans (W3_arg12 m ρ c)

/-! ## At the return -/

/-- The result buffer at the return: the mean over each graph of the second convolution's result, through the last
    linear layer — the reference's result as a function of the thirteen arguments. -/
theorem W5_v40 : W5 m ρ c (Proc.devRef .tc main_v40) = Cert.ReferenceIdeal.Read.val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show StableHlo.after hostOps2 (W4 m ρ c) (Proc.devRef .tc main_v40) = _
  after_results_simp
  rw [W4_v25, W4_arg2, W4_arg11, W4_arg12]
  rfl

end Cert.Bridge

end
-- ==== Proof.lean ====
/-
  A two-layer graph-isomorphism network with a mean over each graph and a last linear layer, against its reference.

  Both programs compute, from node features x (50000 × 96), an edge list, a graph id per node and the parameters
  W1, b1, W2, b2, V1, c1, V2, c2, Wl, bl:
      agg1 = for each node, the sum of the features of the sources of its incoming edges
      h    = max (max ((x + agg1)·W1 + b1) 0 · W2 + b2) 0
      agg2 = the same neighbour sums of h
      h2   = max ((h + agg2)·V1 + c1) 0 · V2 + c2
      out  = (per-graph sums of h2 / max (per-graph node counts) 1) · Wl + bl.
  The kernel computes the two perceptrons in two pipelined regions, 2000 rows at a time, with the products' operands
  passed through a narrower float format; everything else is the same host operations as the reference's. On the
  extended reals a change of float format is the identity and a product accumulated into zero is the sum over the
  contracted coordinate, so each region's output array is the reference's perceptron stage, entry by entry
  (Payload, Region0, Region1, RefMlp over the specification GinSpec), and the shared host operations carry that
  equality from boundary to boundary up to the result (Bridge). No law beyond reading both spellings of a dense
  layer as the same sum is used, so the precondition (finite inputs) is not opened.

  The three frames: the word-level and the idealized kernel's are the generated frame certificates; the reference's
  is its generated run with the result dropped. The idealization rewrote no operation, so `preserves` is trivial.
-/
import proofs.«109134_j67731634258537_1_alg».proof.Defs
import proofs.«109134_j67731634258537_1_alg».proof.Proof.Gen.Kernel
import proofs.«109134_j67731634258537_1_alg».proof.Proof.Gen.Kernel.Skeleton
import proofs.«109134_j67731634258537_1_alg».proof.Proof.Gen.Kernel.Launch
import proofs.«109134_j67731634258537_1_alg».proof.Proof.Gen.Kernel.Points
import proofs.«109134_j67731634258537_1_alg».proof.Proof.Gen.Kernel.Frame
import proofs.«109134_j67731634258537_1_alg».proof.Proof.Gen.KernelIdeal
import proofs.«109134_j67731634258537_1_alg».proof.Proof.Gen.KernelIdeal.Skeleton
import proofs.«109134_j67731634258537_1_alg».proof.Proof.Gen.KernelIdeal.Launch
import proofs.«109134_j67731634258537_1_alg».proof.Proof.Gen.KernelIdeal.Points
import proofs.«109134_j67731634258537_1_alg».proof.Proof.Gen.KernelIdeal.Frame
import proofs.«109134_j67731634258537_1_alg».proof.Proof.Gen.ReferenceIdeal
import proofs.«109134_j67731634258537_1_alg».proof.Proof.Gen.Pre_finite_inputs
import proofs.«109134_j67731634258537_1_alg».proof.Proof.Gen.ReferenceIdeal.Run
import proofs.«109134_j67731634258537_1_alg».proof.Proof.Gen.ReferenceIdeal.Read
import proofs.«109134_j67731634258537_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at ONE function of the thirteen arguments: the reference's last stage. The kernel's
    run ends with the result buffer at the last boundary's contents, which is that stage of its own arguments; the
    reference's run ends at that stage of arguments that agree with the kernel's. -/
theorem algebraic : Cert.algebraic_KernelIdeal_ReferenceIdeal := by
  intro m ρ m' ρ' _ hagree
  refine ⟨fun c => Cert.ReferenceIdeal.Read.val_main_v59 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono (fun _ h c => ⟨(h c).1.trans (Cert.Bridge.W5_v40 m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v59_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
